-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x2048 : Shape := ⟨3, ![128, 128, 2048]⟩
abbrev S128 : Shape := ⟨1, ![128]⟩
abbrev S_ : Shape := ⟨0, ![]⟩

class Facts : Prop where
  bcast_S_S128x128x2048 : S_.BroadcastsInDim S128x128x2048 (![] : Fin 0 → Fin S128x128x2048.rank)
  reducesTo_S128x128x2048_S_d0_1_2 : S128x128x2048.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S128x128x2048 .f32) (main_arg1 : FVec F S128 .f32) : IVec S_ 1 :=
  let main_v0 : FVec F S128x128x2048 .f32 := Host.absf main_arg0
  let main_cst : FVec F S_ .f32 := constant S_ .f32 0x7F800000#32
  let main_v1 : FVec F S128x128x2048 .f32 := broadcastInDim S128x128x2048 ![] bcast_S_S128x128x2048 main_cst
  let main_v2 : IVec S128x128x2048 1 := cmpf .olt main_v0 main_v1
  let main_c : IVec S_ 1 := constantI S_ 1 1#1
  let main_v3 : IVec S_ 1 := (fun x v => Host.reduce IntOp.andi x v reducesTo_S128x128x2048_S_d0_1_2 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Kernel.lean ====
abbrev S128x128x2048 : Shape := ⟨3, ![128, 128, 2048]⟩
abbrev S128 : Shape := ⟨1, ![128]⟩
abbrev S_ : Shape := ⟨0, ![]⟩
abbrev S1x128x1 : Shape := ⟨3, ![1, 128, 1]⟩
abbrev S8x128x2048 : Shape := ⟨3, ![8, 128, 2048]⟩

abbrev nBuf : Space → Nat
  | .hbm => 8
  | .vmem => 5
  | .smem => 0
  | _ => 0

abbrev bufTy : (tb : Table) → Fin (tcTables nBuf tb) → BufTy
  | .hbm, ⟨0, _⟩ => ⟨S128x128x2048, .f32⟩
  | .hbm, ⟨1, _⟩ => ⟨S128, .f32⟩
  | .hbm, ⟨2, _⟩ => ⟨S_, .f32⟩
  | .hbm, ⟨3, _⟩ => ⟨S128, .f32⟩
  | .hbm, ⟨4, _⟩ => ⟨S128, .i1⟩
  | .hbm, ⟨5, _⟩ => ⟨S128, .f32⟩
  | .hbm, ⟨6, _⟩ => ⟨S1x128x1, .f32⟩
  | .hbm, ⟨7, _⟩ => ⟨S128x128x2048, .f32⟩
  | .local _ .vmem, ⟨0, _⟩ => ⟨S8x128x2048, .f32⟩
  | .local _ .vmem, ⟨1, _⟩ => ⟨S8x128x2048, .f32⟩
  | .local _ .vmem, ⟨2, _⟩ => ⟨S1x128x1, .f32⟩
  | .local _ .vmem, ⟨3, _⟩ => ⟨S8x128x2048, .f32⟩
  | .local _ .vmem, ⟨4, _⟩ => ⟨S8x128x2048, .f32⟩
  | _, _ => ⟨S128x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S128 : S_.BroadcastsInDim S128 (![] : Fin 0 → Fin S128.rank)
  shapeCasts_S128_S1x128x1 : S128.ShapeCasts S1x128x1
  inb_S8x128x2048_S8x128x2048_0_0_0 : ∀ a, (![0, 0, 0] : Fin 3 → Nat) a + S8x128x2048.size a ≤ S8x128x2048.size a
  h_S8x128x2048 : 0 < S8x128x2048.numel
  inb_S1x128x1_S1x128x1_0_0_0 : ∀ a, (![0, 0, 0] : Fin 3 → Nat) a + S1x128x1.size a ≤ S1x128x1.size a
  h_S1x128x1 : 0 < S1x128x1.numel
  shapeCasts_S1x128x1_S1x128x1 : S1x128x1.ShapeCasts S1x128x1
  broadcasts_S1x128x1_S8x128x2048 : S1x128x1.Broadcasts S8x128x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x2048.size a ≤ S128x128x2048.size a
  hwx0_0 : ∀ i : grid0.Coords, EltTy.bits .f32 = 32 ∨ (Rect.block (s := S128x128x2048) S8x128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128x1.size a ≤ S1x128x1.size a
  hwx0_1 : ∀ i : grid0.Coords, EltTy.bits .f32 = 32 ∨ (Rect.block (s := S1x128x1) S1x128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x2048.size a ≤ S128x128x2048.size a
  hwx0_2 : ∀ i : grid0.Coords, EltTy.bits .f32 = 32 ∨ (Rect.block (s := S128x128x2048) S8x128x2048.size (cc0_transform_2 i) (hinb0_2 i)).WholeWords (EltTy.packing .f32)

variable [Facts₀]

abbrev win0_0 : Pipeline.Window sig grid0 :=
  Pipeline.Window.ofSpec (Memref.whole main_arg0) S8x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x128x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x128x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x128x2048 : Shape := ⟨3, ![128, 128, 2048]⟩
abbrev S128 : Shape := ⟨1, ![128]⟩
abbrev S_ : Shape := ⟨0, ![]⟩
abbrev S1x128x1 : Shape := ⟨3, ![1, 128, 1]⟩

abbrev nBuf : Space → Nat
  | .hbm => 9
  | .vmem => 0
  | .smem => 0
  | _ => 0

abbrev bufTy : (tb : Table) → Fin (tcTables nBuf tb) → BufTy
  | .hbm, ⟨0, _⟩ => ⟨S128x128x2048, .f32⟩
  | .hbm, ⟨1, _⟩ => ⟨S128, .f32⟩
  | .hbm, ⟨2, _⟩ => ⟨S_, .f32⟩
  | .hbm, ⟨3, _⟩ => ⟨S128, .f32⟩
  | .hbm, ⟨4, _⟩ => ⟨S128, .i1⟩
  | .hbm, ⟨5, _⟩ => ⟨S128, .f32⟩
  | .hbm, ⟨6, _⟩ => ⟨S1x128x1, .f32⟩
  | .hbm, ⟨7, _⟩ => ⟨S128x128x2048, .f32⟩
  | .hbm, ⟨8, _⟩ => ⟨S128x128x2048, .f32⟩
  | _, _ => ⟨S128x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S1x128x1_1 : S128.BroadcastsInDim S1x128x1 (![1] : Fin 1 → Fin S1x128x1.rank)
  bcast_S1x128x1_S128x128x2048_0_1_2 : S1x128x1.BroadcastsInDim S128x128x2048 (![0, 1, 2] : Fin 3 → Fin S128x128x2048.rank)

variable [Facts₀]

class Facts : Prop extends Facts₀ where

variable [Facts]
-- ==== Proof.FeatureDrop.lean ====
/-
  Per-feature dropout, as one function of the two argument arrays.

  The data are an array `x` of extents 128 × 128 × 2048 (batch, feature, position) and a vector `r` of 128 draws,
  one per feature. Feature `s` is KEPT when its draw is at least the threshold `0.2` (the f32 word `0x3E4CCCCD`,
  the same word wherever it is used, so its value is never opened) and DROPPED otherwise: the comparison gives one
  bit, and that bit converted to a float is the factor `keep r s` (the float of 1 or of 0). The result scales every
  entry of the array by the factor of its feature,

      dropped x r (b, s, d) = x (b, s, d) · keep r s.

  Nothing here is special to exact arithmetic: the definition uses the scalar operations of any float instance
  `F` (comparison, integer-to-float conversion, product), each once per entry, so the two programs compared against
  it agree with it operation by operation and no algebraic law of the extended reals (and hence no finiteness of the
  inputs) is needed.
-/
import Idealize.ShloMosaic.Lib.ValueIdx
import Idealize.ShloMosaic.Lib.Pipeline.Value

noncomputable section

namespace Cert.FeatureDrop

open Idealize.ShloMosaic

/-- The array's shape: batch × feature × position. -/
abbrev SX : Shape := ⟨3, ![128, 128, 2048]⟩
/-- The shape of the vector of draws: one per feature. -/
abbrev SR : Shape := ⟨1, ![128]⟩

variable {F : FTy → Type} [FloatOps F]

/-- The factor of feature `s`: the bit of `r s ≥ 0.2` converted to a float. -/
def keep (r : SR.Idx → F .f32) : SR.Idx → F .f32 := fun s =>
  FloatOps.uitofp .f32 (FloatOps.cmpf .oge (r s) (FloatOps.ofBits .f32 0x3E4CCCCD#32))

/-- The feature an entry of the array belongs to: its middle coordinate. -/
abbrev featureOf (i : SX.Idx) : SR.Idx := fun a => match a with
  | ⟨0, _⟩ => ⟨(i 1).val, (i 1).isLt⟩

/-- The result: every entry scaled by the factor of its feature. -/
def dropped (x : SX.Idx → F .f32) (r : SR.Idx → F .f32) : SX.Idx → F .f32 := fun i =>
  FloatOps.mulf (x i) (keep r (featureOf i))

theorem dropped_apply (x : SX.Idx → F .f32) (r : SR.Idx → F .f32) (i : SX.Idx) :
    dropped x r i = FloatOps.mulf (x i) (keep r (featureOf i)) := rfl

theorem keep_apply (r : SR.Idx → F .f32) (s : SR.Idx) :
    keep r s = FloatOps.uitofp .f32 (FloatOps.cmpf .oge (r s) (FloatOps.ofBits .f32 0x3E4CCCCD#32)) := rfl

end Cert.FeatureDrop

end
-- ==== Proof.RefDropped.lean ====
/-
  The reference computes `dropped`.

  The host program builds the factor vector `keep r` (threshold constant spread over the 128 features, comparison,
  bit to float), lays it out as a 1 × 128 × 1 array (feature `s` at (0, s, 0)), spreads that over the whole
  128 × 128 × 2048 shape (entry (b, s, d) reads (0, s, 0)), and multiplies the argument array by it entry by entry.
  Read at an entry `i`, the two spreading steps compose to "read the factor vector at the middle coordinate of `i`",
  which is `featureOf i`; the rest is the definition of `keep` and `dropped` unfolded.
-/
import proofs.«178043_j37254546325874_2_alg».proof.Proof.Gen.ReferenceIdeal.Read
import proofs.«178043_j37254546325874_2_alg».proof.Proof.FeatureDrop

noncomputable section

namespace Cert.FeatureDrop.Reference

open Cert.ReferenceIdeal Cert.ReferenceIdeal.Gen Cert.ReferenceIdeal.Read Idealize.ShloMosaic Idealize.ShloMosaic.TcCoe
open Idealize.SL.Sem Cert.FeatureDrop

variable {F : FTy → Type} [FloatOps F]

/-- The two spreading steps, composed, read the factor vector at the entry's feature. -/
theorem spread_idx (i : S128x128x2048.Idx) : idx_main_v3 (idx_main_v4 i) = featureOf i :=
  funext fun a => match a with | ⟨0, _⟩ => rfl

/-- The reference's result, as the stages of its operations, is `dropped` of its two arguments. -/
theorem result_eq (x : (⟨S128x128x2048, .f32⟩ : BufTy).Contents (Elt F)) (r : (⟨S128, .f32⟩ : BufTy).Contents (Elt F)) :
    val_main_v5 (F := F) x r = dropped x r := by
  funext i
  rw [val_main_v5_apply, val_main_v4_apply, val_main_v3_apply, val_main_v2_apply, val_main_v1_apply,
    val_main_v0_apply, val_main_cst_apply, spread_idx, dropped_apply, keep_apply]

/-- The reference's run, read: when its argument arrays are the arrays `x c` and draws `r c` (named as plain
    arrays, so that another program's arrays can be put there), its result array ends at `dropped (x c) (r c)`
    and its arguments unchanged. -/
theorem run (m : (ℓ : Loc nD τ sig) → Buf (Elt F) ℓ) (ρ : Dev nD → PrngReg)
    (x : Dev nD → SX.Idx → F .f32) (r : Dev nD → SR.Idx → F .f32)
    (hx : ∀ c : Dev nD, m ((c.tc : Thread nD τ).loc main_arg0) = x c)
    (hr : ∀ c : Dev nD, m ((c.tc : Thread nD τ).loc main_arg1) = r c) :
    θ_run defs (onTc (τ := τ) (main (F := F))) ⟨m, fun _ => 0, ρ⟩ fun s => ∀ c : Dev nD,
      s.2.mem ((c.tc : Thread nD τ).loc main_v5) = dropped (x c) (r c)
      ∧ s.2.mem ((c.tc : Thread nD τ).loc main_arg0) = m ((c.tc : Thread nD τ).loc main_arg0)
      ∧ s.2.mem ((c.tc : Thread nD τ).loc main_arg1) = m ((c.tc : Thread nD τ).loc main_arg1) :=
  (θ_run defs _ _).mono
    (fun _ h c => ⟨(h c).1.trans (by rw [val_main_v5_eq, result_eq, hx c, hr c]), (h c).2⟩)
    (Cert.ReferenceIdeal.Value.run (F := F) m ρ)

end Cert.FeatureDrop.Reference

end
-- ==== Proof.KernelFactors.lean ====
/-
  The factor array the kernel's call finds.

  Before the call the host computes the factor vector `keep r` exactly as the definition says (the threshold word
  spread over the 128 features, the comparison, the bit converted to a float) and re-lays it as a 1 × 128 × 1 array
  without changing the row-major order of its 128 elements: the element at (0, s, 0) is element `s` of the vector,
  because the row-major position of (0, s, 0) in extents 1 × 128 × 1 is (0 · 128 + s) · 1 + 0 = s.
-/
import proofs.«178043_j37254546325874_2_alg».proof.Proof.Gen.KernelIdeal.Frame
import proofs.«178043_j37254546325874_2_alg».proof.Proof.FeatureDrop
import Idealize.ShloMosaic.Lib.Pipeline.Value
import Idealize.ShloMosaic.Lib.StableHlo.Run

noncomputable section

namespace Cert.FeatureDrop.Kernel

open Cert.KernelIdeal Cert.KernelIdeal.Gen Idealize.ShloMosaic Idealize.ShloMosaic.TcCoe Idealize.SL.Sem
open Idealize.ShloMosaic.StableHlo Cert.FeatureDrop

variable {F : FTy → Type} [FloatOps F]
variable (m : (ℓ : Loc nD τ sig) → Buf (Elt F) ℓ)

/-- The feature a position of the 1 × 128 × 1 factor array stands for: its middle coordinate. -/
abbrev featureAt (k : S1x128x1.Idx) : SR.Idx := fun a => match a with
  | ⟨0, _⟩ => ⟨(k 1).val, (k 1).isLt⟩

/-- What the host operations before the call leave in the factor array: the factor vector, as the operations
    compute it from the draws, re-laid to 1 × 128 × 1. -/
theorem factors_eq (c : Dev nD) :
    (V m c main_v3 : S1x128x1.Idx → F .f32)
      = shapeCast S1x128x1 (uitofp .f32 (cmpf .oge (m ((c : Thread nD τ).loc main_arg1))
          (broadcastInDim S128 ![] bcast_S_S128 (constant (F := F) S_ .f32 0x3E4CCCCD#32)))) shapeCasts_S128_S1x128x1 := by
  dsimp only [V, hostOps0]
  after_results
  rfl

/-- Read at a position, the factor array holds the factor of that position's feature. -/
theorem factors_apply (c : Dev nD) (k : S1x128x1.Idx) :
    (V m c main_v3 : S1x128x1.Idx → F .f32) k = keep (m ((c : Thread nD τ).loc main_arg1)) (featureAt k) := by
  rw [factors_eq]
  refine (shapeCast_apply _ _ k (featureAt k) ?_).trans ?_
  · rw [Shape.rowMajor_val_one, Shape.rowMajor_val_three]
    have h0 : (k 0).val < 1 := (k 0).isLt
    have h2 : (k 2).val < 1 := (k 2).isLt
    show (k 1).val = ((k 0).val * 128 + (k 1).val) * 1 + (k 2).val
    omega
  · rfl

end Cert.FeatureDrop.Kernel

end
-- ==== Proof.KernelBlocks.lean ====
/-
  What one grid point writes back is its block of `dropped`.

  The call runs over 16 grid points; point `t` stages batches 8t … 8t + 7 of the array (block index (t, 0, 0) in
  blocks of 8 × 128 × 2048), the whole 1 × 128 × 1 factor array (block index (0, 0, 0)), and writes back the block of
  the result at the same block index (t, 0, 0). The body multiplies the staged array block, entry by entry, by the
  factor block spread over batch and position: entry (b, s, d) of the block is
  (array block at (b, s, d)) · (factor block at (0, s, 0)).

  An entry (b, s, d) of the block sits at (8t + b, s, d) of the array, so its feature is `s`, and the factor block at
  (0, s, 0) is `keep r s` (the factor array's reading): the block written back is `dropped x r` read through the
  output block's rectangle.
-/
import proofs.«178043_j37254546325874_2_alg».proof.Proof.Gen.KernelIdeal.Value
import proofs.«178043_j37254546325874_2_alg».proof.Proof.KernelFactors
import Idealize.ShloMosaic.Lib.Tactic

noncomputable section

namespace Cert.FeatureDrop.Kernel

open Cert.KernelIdeal Cert.KernelIdeal.Gen Cert.KernelIdeal.Value Idealize.ShloMosaic Idealize.ShloMosaic.TcCoe Idealize.SL.Sem
open Idealize.ShloMosaic.Pipeline (Dat)
open Cert.FeatureDrop

variable {F : FTy → Type} [FloatOps F]
variable (m : (ℓ : Loc nD τ sig) → Buf (Elt F) ℓ)

theorem zero_offsets : (![0, 0, 0] : Fin 3 → Nat) = fun _ => 0 := funext fun a => by fin_cases a <;> rfl

/-- The body's result at an entry of the block: the array block's entry times the factor block's entry of the same
    feature (the body loads both blocks whole, so the loaded values are the blocks themselves). -/
theorem body_apply (x0 : Vec F S8x128x2048 .f32) (x1 : Vec F S1x128x1 .f32) (y : S8x128x2048.Idx) :
    out0_2 x0 x1 y = FloatOps.mulf (x0 y) (x1 (ix2_1 y)) := by
  have h0 : View.ld x0 r0_0 = x0 := View.ld_unit_zero (S := S8x128x2048) zero_offsets _ x0
  have h1 : View.ld x1 r0_1 = x1 := View.ld_unit_zero (S := S1x128x1) zero_offsets _ x1
  have e : ix2_0 y = y := funext fun a => match a with | ⟨0, _⟩ => rfl | ⟨1, _⟩ => rfl | ⟨2, _⟩ => rfl
  unfold out0_2
  rw [canon2_eq, h0, h1]
  show FloatOps.mulf (x0 (ix2_0 y)) (x1 (ix2_1 y)) = _
  rw [e]

/-- The printed index maps over the 16 grid points: the array's block and the result's block at point `t` both have
    block index (t, 0, 0), the factor array's (0, 0, 0). -/
theorem block_indices : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- WHAT POINT `t` WRITES BACK is block `t` of `dropped` of the array and the draws as the call finds them. -/
theorem flushed_eq (c : Dev nD) (t : Fin cfg0.N) :
    (dats m 0 c).flushed 2 t
      = ((cfg0.win 2).blk t).view.read (Elt F) (dropped (V m c main_arg0) (m ((c : Thread nD τ).loc main_arg1))) := by
  rw [flushed2]
  obtain ⟨a0, a1, a2, f0, f1, f2, o0, o1, o2⟩ := block_indices t
  funext j
  show out0_2 (iblk m c 0 t) (iblk m c 1 t) j
    = dropped (V m c main_arg0) (m ((c : Thread nD τ).loc main_arg1)) (((cfg0.win 2).blk t).view.emb j)
  refine (body_apply (iblk m c 0 t) (iblk m c 1 t) j).trans ?_
  rw [dropped_apply]
  show FloatOps.mulf (V m c main_arg0 (((cfg0.win 0).blk t).view.emb j)) (V m c main_v3 (((cfg0.win 1).blk t).view.emb (ix2_1 j))) = _
  have hx : ((cfg0.win 0).blk t).view.emb j = ((cfg0.win 2).blk t).view.emb j := by
    funext a; apply Fin.ext
    match a with
    | ⟨0, _⟩ => show win0_0.index t (0 : Fin 3) * 8 + 1 * (j 0).val = win0_2.index t (0 : Fin 3) * 8 + 1 * (j 0).val; omega
    | ⟨1, _⟩ => show win0_0.index t (1 : Fin 3) * 128 + 1 * (j 1).val = win0_2.index t (1 : Fin 3) * 128 + 1 * (j 1).val; omega
    | ⟨2, _⟩ => show win0_0.index t (2 : Fin 3) * 2048 + 1 * (j 2).val = win0_2.index t (2 : Fin 3) * 2048 + 1 * (j 2).val; omega
  have hk : V m c main_v3 (((cfg0.win 1).blk t).view.emb (ix2_1 j))
      = keep (m ((c : Thread nD τ).loc main_arg1)) (featureOf (((cfg0.win 2).blk t).view.emb j)) := by
    refine (factors_apply m c _).trans (congrArg (keep _) ?_)
    funext a; apply Fin.ext
    match a with
    | ⟨0, _⟩ => show win0_1.index t (1 : Fin 3) * 128 + 1 * (j 1).val = win0_2.index t (1 : Fin 3) * 128 + 1 * (j 1).val; omega
  rw [hx, hk]

end Cert.FeatureDrop.Kernel

end
-- ==== Proof.KernelDropped.lean ====
/-
  The kernel's result array is `dropped` of its arguments.

  Point `t`'s result block holds the entries whose batch coordinate is in 8t … 8t + 7 (all features, all
  positions), so an entry with batch coordinate `b` lies in the block of point `b / 8`, one of the 16 points: the
  blocks written back cover the array. Each is its block of the one function `dropped x r` (`flushed_eq`), so
  whatever the order of the write-backs the array ends holding `dropped x r`; the array and the draws are found by
  the call as they were launched.
-/
import proofs.«178043_j37254546325874_2_alg».proof.Proof.KernelBlocks

noncomputable section

namespace Cert.FeatureDrop.Kernel

open Cert.KernelIdeal Cert.KernelIdeal.Gen Cert.KernelIdeal.Value Idealize.ShloMosaic Idealize.ShloMosaic.TcCoe Idealize.SL.Sem
open Idealize.ShloMosaic.Pipeline (Dat)
open Cert.FeatureDrop

variable {F : FTy → Type} [FloatOps F]
variable (m : (ℓ : Loc nD τ sig) → Buf (Elt F) ℓ) (ρ : Dev nD → PrngReg)

/-- The entries of point `t`'s result block: each coordinate within the block's range on its axis. -/
theorem mem_block (t : Fin cfg0.N) (i : S128x128x2048.Idx) :
    i ∈ ((cfg0.win 2).blk t).view.set
      ↔ ∀ a : Fin 3, win0_2.index t a * S8x128x2048.size a ≤ (i a).val
          ∧ (i a).val < win0_2.index t a * S8x128x2048.size a + S8x128x2048.size a := by
  show i ∈ ((View.whole main_v4).slice (win0_2.rect t)).set ↔ _
  rw [View.set_slice_whole, Rect.mem_set_unit]
  exact Iff.rfl

/-- Every entry lies in the result block of the point its batch coordinate falls in, eight batches to a point. -/
theorem covered (i : S128x128x2048.Idx) :
    ∃ t : Fin cfg0.N, (cfg0.win 2).flush t = true ∧ i ∈ ((cfg0.win 2).blk t).view.set := by
  have hi0 : (i 0).val < 128 := (i 0).isLt
  have hi1 : (i 1).val < 128 := (i 1).isLt
  have hi2 : (i 2).val < 2048 := (i 2).isLt
  have hN : cfg0.N = 16 := N_0
  obtain ⟨t, ht⟩ : ∃ t : Fin cfg0.N, t.val = (i 0).val / 8 := ⟨⟨(i 0).val / 8, by omega⟩, rfl⟩
  obtain ⟨-, -, -, -, -, -, o0, o1, o2⟩ := block_indices t
  refine ⟨t, flush0_2 t, ?_⟩
  rw [mem_block]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 128 ≤ (i 1).val ∧ (i 1).val < win0_2.index t (1 : Fin 3) * 128 + 128; omega
  | ⟨2, _⟩ => show win0_2.index t (2 : Fin 3) * 2048 ≤ (i 2).val ∧ (i 2).val < win0_2.index t (2 : Fin 3) * 2048 + 2048; omega

/-- THE RESULT ARRAY after the run is `dropped` of the argument arrays. -/
theorem final (c : Dev nD) :
    (dats m 0 c).arrAt 2 cfg0.N
      = dropped (m ((c : Thread nD τ).loc main_arg0)) (m ((c : Thread nD τ).loc main_arg1)) :=
  ((dats m 0 c).arrAt_eq_of_cover 2 _ (fun t _ => flushed_eq m c t) covered).trans (by rw [V_main_arg0])

/-- The kernel's run, read: the result array at `dropped` of the arguments, the arguments unchanged. -/
theorem run : θ_run defs (onTc (τ := τ) (main (F := F))) ⟨m, fun _ => 0, ρ⟩ fun r => ∀ c : Dev nD,
      r.2.mem ((c : Thread nD τ).loc main_v4)
        = dropped (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.FeatureDrop.Kernel

end
-- ==== Proof.lean ====
/-
  Per-feature dropout: a tiled kernel against its whole-array reference.

  Both programs take an array `x` of extents 128 × 128 × 2048 (batch, feature, position) and 128 draws `r`, one per
  feature, and return `x` with feature `s` scaled by `keep r s`: the float of the bit `r s ≥ 0.2` (1 keeps the
  feature, 0 zeroes it) — the function `Cert.FeatureDrop.dropped`.

  * The reference computes it in one piece on the host: the factor vector spread over the whole shape, then one
    entry-by-entry product (`Cert.FeatureDrop.Reference.run`).
  * The kernel computes the same factor vector on the host, lays it out as a 1 × 128 × 1 array, and runs a call over
    16 grid points, each taking eight batches of `x`, multiplying them by the factor array spread over batch and
    position, and writing the eight batches of the result back. Each block written back is that block of
    `dropped x r`, and the 16 blocks cover the array (`Cert.FeatureDrop.Kernel.run`).

  The two sides apply the same scalar operations — one comparison and one conversion per feature, one product per
  entry, with the same threshold word — and differ only in how the factor is laid out and in the tiling, so they are
  equal entry by entry with no law of arithmetic used; in particular the finiteness of the inputs is not needed for
  the equality. The idealization's ledger of rewrites is empty (the idealized kernel is the kernel's own text read
  over the extended reals), so the claim that it preserves the kernel has no conjunct to prove.

  The three frames are the generated frame runs (the reference's being its generated run with the result dropped).
-/
import proofs.«178043_j37254546325874_2_alg».proof.Defs
import proofs.«178043_j37254546325874_2_alg».proof.Proof.Gen.Kernel
import proofs.«178043_j37254546325874_2_alg».proof.Proof.Gen.Kernel.Skeleton
import proofs.«178043_j37254546325874_2_alg».proof.Proof.Gen.Kernel.Launch
import proofs.«178043_j37254546325874_2_alg».proof.Proof.Gen.Kernel.Points
import proofs.«178043_j37254546325874_2_alg».proof.Proof.Gen.Kernel.Frame
import proofs.«178043_j37254546325874_2_alg».proof.Proof.Gen.KernelIdeal
import proofs.«178043_j37254546325874_2_alg».proof.Proof.Gen.KernelIdeal.Skeleton
import proofs.«178043_j37254546325874_2_alg».proof.Proof.Gen.KernelIdeal.Launch
import proofs.«178043_j37254546325874_2_alg».proof.Proof.Gen.KernelIdeal.Points
import proofs.«178043_j37254546325874_2_alg».proof.Proof.Gen.KernelIdeal.Frame
import proofs.«178043_j37254546325874_2_alg».proof.Proof.Gen.ReferenceIdeal
import proofs.«178043_j37254546325874_2_alg».proof.Proof.Gen.Pre_finite_inputs
import proofs.«178043_j37254546325874_2_alg».proof.Proof.Gen.KernelIdeal.Value
import proofs.«178043_j37254546325874_2_alg».proof.Proof.Gen.ReferenceIdeal.Run
import proofs.«178043_j37254546325874_2_alg».proof.Proof.Gen.ReferenceIdeal.Read
import proofs.«178043_j37254546325874_2_alg».proof.Proof.RefDropped
import proofs.«178043_j37254546325874_2_alg».proof.Proof.KernelDropped
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from memories agreeing on the array and on the draws, both programs end with the
    result array at `dropped` of the kernel's arguments: the kernel by its run, the reference by its run at arrays
    equal to its own by the agreement. -/
theorem algebraic : Cert.algebraic_KernelIdeal_ReferenceIdeal := fun m ρ m' ρ' _ hagree =>
  Exists.intro
    (fun c => Cert.FeatureDrop.dropped (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)))
    ⟨Cert.FeatureDrop.Kernel.run (F := Ideal) m ρ,
      Cert.FeatureDrop.Reference.run (F := Ideal) m' ρ'
        (fun c => m ((c.tc : Thread Cert.KernelIdeal.nD Cert.KernelIdeal.τ).loc Cert.KernelIdeal.main_arg0))
        (fun c => m ((c.tc : Thread Cert.KernelIdeal.nD Cert.KernelIdeal.τ).loc Cert.KernelIdeal.main_arg1))
        (fun c => (hagree c).1) (fun c => (hagree c).2)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
